-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S256 : Shape := ⟨1, ![256]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4x2048x4096 .f32) (main_arg1 : IVec S4096x4096 32) (main_arg2 : FVec F S4096x1 .f32) (main_arg3 : FVec F S256 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S256 : Shape := ⟨1, ![256]⟩
abbrev S_ : Shape := ⟨0, ![]⟩
abbrev S4096x4096x1 : Shape := ⟨3, ![4096, 4096, 1]⟩
abbrev S4096 : Shape := ⟨1, ![4096]⟩
abbrev S1x4096 : Shape := ⟨2, ![1, 4096]⟩
abbrev S8192x4096 : Shape := ⟨2, ![8192, 4096]⟩
abbrev S128x4096 : Shape := ⟨2, ![128, 4096]⟩

abbrev nBuf : Space → Nat
  | .hbm => 22
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S256, .f32⟩
  | .hbm, ⟨4, _⟩ => ⟨S4096x4096, .i32⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096x1, .i32⟩
  | .hbm, ⟨13, _⟩ => ⟨S4096x4096, .f32⟩
  | .hbm, ⟨14, _⟩ => ⟨S4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S8192x4096, .f32⟩
  | .hbm, ⟨20, _⟩ => ⟨S8192x4096, .f32⟩
  | .hbm, ⟨21, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4096x4096_S4096x4096_1_0 : S4096x4096.Transposes [1, 0] S4096x4096
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x1_S4096 : S4096x1.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v13) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S256 : Shape := ⟨1, ![256]⟩
abbrev S_ : Shape := ⟨0, ![]⟩
abbrev S4096x4096x1 : Shape := ⟨3, ![4096, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S256, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096x1_S4096x4096_0_1 : S4096x1.BroadcastsInDim S4096x4096 (![0, 1] : Fin 2 → Fin S4096x4096.rank)
  gather_S256_S4096x4096x1_S4096x4096_n_0_n_n_0_2_1_wf : GatherDims.WF S256 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Linear.lean ====
/-
  The quantized linear layer as ONE function of its four arguments, index by index, over the extended reals.

  A weight matrix is stored as integer codes into a table of 256 values, with one scale per output row:
  the weight of output row `o` at input column `k` is `table[code o k] · scale o`. A code is read as a position in the
  table the way array indexing reads it: a negative code counts from the end (256 is added to it), and the
  position is then clamped into `[0, 255]`. The layer's output at `(b, s, o)` is the sum over the input column `k`
  of `x (b, s, k) · weight o k`.

  Both programs compute this function; the two differ in where the weight matrix is transposed and in how the
  sum over `k` is scheduled, neither of which the extended reals see.
-/
import Idealize.ShloMosaic.PureOps.Ideal
import Idealize.ShloMosaic.Lib.ValueIdx

noncomputable section

open scoped BigOperators

namespace Cert.Linear

open Idealize.ShloMosaic Idealize.ShloMosaic.ValueIdx

/-- A code as a position counted from the front: a negative code has 256 added. -/
def wrapCode (w : BitVec 32) : BitVec 32 :=
  Scalar.select (IntOp.cmpi .slt w 0#32) (IntOp.addi w 256#32) w

/-- The table entry a code selects: the wrapped code read as a signed integer and clamped into `[0, 255]`. -/
def entry (table : (⟨1, ![256]⟩ : Shape).Idx → EReal) (w : BitVec 32) : EReal :=
  table (ix1 ⟨min (wrapCode w).toInt.toNat (256 - 1), by omega⟩)

/-- The dequantized weight of output row `o` at input column `k`: the table entry of the code there, times the
    row's scale. -/
def weight (codes : (⟨2, ![4096, 4096]⟩ : Shape).Idx → BitVec 32) (scale : (⟨2, ![4096, 1]⟩ : Shape).Idx → EReal)
    (table : (⟨1, ![256]⟩ : Shape).Idx → EReal) (o k : Fin 4096) : EReal :=
  entry table (codes (ix2 o k)) * scale (ix2 o (0 : Fin 1))

/-- The layer's output: at `(b, s, o)` the sum over the input column `k` of `x (b, s, k) · weight o k`. -/
def out (x : (⟨3, ![4, 2048, 4096]⟩ : Shape).Idx → EReal) (codes : (⟨2, ![4096, 4096]⟩ : Shape).Idx → BitVec 32)
    (scale : (⟨2, ![4096, 1]⟩ : Shape).Idx → EReal) (table : (⟨1, ![256]⟩ : Shape).Idx → EReal) :
    (⟨3, ![4, 2048, 4096]⟩ : Shape).Idx → EReal :=
  fun j => ∑ k : Fin 4096, x (ix3 (n0 := 4) (n1 := 2048) (n2 := 4096) (j 0) (j 1) k) * weight codes scale table (j 2) k

end Cert.Linear

end
-- ==== Proof.RefValue.lean ====
/-
  The reference computes the layer: its result, read at an index, is `Linear.out` of its four arguments.

  The reference wraps each code (`select (code < 0) (code + 256) code`), gathers the table at the wrapped codes (a gather
  of a flat table reads the entry at the start index, signed and clamped), multiplies row `o` of the gathered
  matrix by `scale o` broadcast along the row, and contracts `x`'s last axis with the weight's second: at `(b, s, o)`
  the sum over `k` of `x (b, s, k) · weight (o, k)`.
-/
import proofs.«113855_j40518721471149_2_alg».proof.Proof.Gen.ReferenceIdeal.Read
import proofs.«113855_j40518721471149_2_alg».proof.Proof.Linear

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The wrapped codes, at an index: the code there, wrapped. -/
theorem wrapped_apply (codes : IVec S4096x4096 32) (y : S4096x4096.Idx) :
    val_main_v4 (F := Ideal) codes y = Cert.Linear.wrapCode (codes y) := rfl

/-- The gathered matrix at `(o, k)`: the table entry the code at `(o, k)` selects. -/
theorem gathered_apply (codes : IVec S4096x4096 32) (table : FVec Ideal S256 .f32) (y : S4096x4096.Idx) :
    val_main_v6 (F := Ideal) codes table y = Cert.Linear.entry table (codes y) := by
  unfold val_main_v6
  refine (gather_take_apply (by decide) gather_S256_S4096x4096x1_S4096x4096_n_0_n_n_0_2_1_wf table (val_main_v5 (F := Ideal) codes) y).trans ?_
  have e : idx_main_v5 (takeIdx y) = y := funext fun a => Fin.ext (by
    match a with
    | ⟨0, _⟩ => rfl
    | ⟨1, _⟩ => rfl)
  have e1 : val_main_v5 (F := Ideal) codes (takeIdx y) = Cert.Linear.wrapCode (codes y) := by
    rw [val_main_v5_apply, e, wrapped_apply]
  unfold Cert.Linear.entry
  exact congrArg table (congrArg ix1 (Fin.ext (by
    show min (val_main_v5 (F := Ideal) codes (takeIdx y)).toInt.toNat (256 - 1) = min (Cert.Linear.wrapCode (codes y)).toInt.toNat (256 - 1)
    rw [e1])))

/-- The weight matrix at `(o, k)`. -/
theorem weight_apply (codes : IVec S4096x4096 32) (scale : FVec Ideal S4096x1 .f32) (table : FVec Ideal S256 .f32) (o k : Fin 4096) :
    val_main_v8 (F := Ideal) codes scale table (ix2 o k) = Cert.Linear.weight codes scale table o k := by
  rw [val_main_v8_apply, gathered_apply, val_main_v7_apply]
  have e : idx_main_v7 (ix2 o k) = ix2 o (0 : Fin 1) := funext fun a => Fin.ext (by
    match a with
    | ⟨0, _⟩ => rfl
    | ⟨1, _⟩ => rfl)
  rw [e]
  rfl

/-- The reference's result is the layer's output. -/
theorem result_eq (x : FVec Ideal S4x2048x4096 .f32) (codes : IVec S4096x4096 32) (scale : FVec Ideal S4096x1 .f32)
    (table : FVec Ideal S256 .f32) :
    val_main_v9 (F := Ideal) x codes scale table = Cert.Linear.out x codes scale table := by
  funext i
  obtain ⟨b, s, o, rfl⟩ : ∃ (b : Fin 4) (s : Fin 2048) (o : Fin 4096), i = ix3 b s o := ⟨i 0, i 1, i 2, eq_ix3 i⟩
  rw [val_main_v9_apply]
  show _ = ∑ k : Fin 4096, x (ix3 b s k) * Cert.Linear.weight codes scale table o k
  refine Finset.sum_congr rfl fun k _ => ?_
  have el : lidx_main_v9 (ix3 b s o) k = ix3 b s k := funext fun a => Fin.ext (by
    match a with
    | ⟨0, _⟩ => rfl
    | ⟨1, _⟩ => rfl
    | ⟨2, _⟩ => rfl)
  have er : ridx_main_v9 (ix3 b s o) k = ix2 o k := funext fun a => Fin.ext (by
    match a with
    | ⟨0, _⟩ => rfl
    | ⟨1, _⟩ => rfl)
  rw [el, er, weight_apply]

end Cert.ReferenceIdeal.RefValue

end
-- ==== Proof.KernelOperands.lean ====
/-
  What the matrix product's two operands hold when the region is entered.

  Before the region the kernel's program flattens `x` from [4, 2048, 4096] to 8192 rows, row `b · 2048 + s` being
  `x (b, s, ·)`, and builds the weight matrix ALREADY TRANSPOSED: it transposes the codes, wraps and gathers them, and
  multiplies column `o` by `scale o` (the scale column recast as a vector, laid along a unit row axis and repeated
  down the rows). So the second operand at `(k, o)` is `Linear.weight o k`: the same table entry and the same scale
  the reference multiplies at `(o, k)`. The change of float format on the way to the region is the identity on
  the extended reals.
-/
import proofs.«113855_j40518721471149_2_alg».proof.Proof.Gen.KernelIdeal.Frame
import proofs.«113855_j40518721471149_2_alg».proof.Proof.Linear
import Idealize.ShloMosaic.Lib.Pipeline.Value
import Idealize.ShloMosaic.Lib.ValueIdx
import Idealize.ShloMosaic.Lib.StableHlo.Run

noncomputable section

namespace Cert.KernelIdeal.Operands

open Cert.KernelIdeal Cert.KernelIdeal.Gen
open Idealize.ShloMosaic Idealize.ShloMosaic.TcCoe Idealize.SL.Sem Idealize.ShloMosaic.ValueIdx Idealize.ShloMosaic.StableHlo

/-! ## The two operands as pure terms of the arguments -/

/-- The codes, transposed. -/
def codesT (codes : IVec S4096x4096 32) : IVec S4096x4096 32 :=
  transpose S4096x4096 [1, 0] codes transposes_S4096x4096_S4096x4096_1_0

/-- The transposed codes, each wrapped to a position counted from the front. -/
def wrappedT (codes : IVec S4096x4096 32) : IVec S4096x4096 32 :=
  select (cmpi .slt (codesT codes) (broadcastInDim S4096x4096 ![] bcast_S_S4096x4096 (constantI S_ 32 0#32)))
    (addi (codesT codes) (broadcastInDim S4096x4096 ![] bcast_S_S4096x4096 (constantI S_ 32 256#32))) (codesT codes)

/-- The scale column as a vector, laid along a unit row axis and repeated down the rows. -/
def scaleCols (scale : FVec Ideal S4096x1 .f32) : FVec Ideal S4096x4096 .f32 :=
  broadcastInDim S4096x4096 ![0, 1] bcast_S1x4096_S4096x4096_0_1
    (broadcastInDim S1x4096 ![1] bcast_S4096_S1x4096_1 (shapeCast S4096 scale shapeCasts_S4096x1_S4096))

/-- The matrix product's second operand: the transposed weight matrix, as the lines before the region compute it. -/
def weightsT (codes : IVec S4096x4096 32) (scale : FVec Ideal S4096x1 .f32) (table : FVec Ideal S256 .f32) :
    FVec Ideal S4096x4096 .bf16 :=
  truncf .bf16 (mulf (Host.gather gather_S256_S4096x4096x1_S4096x4096_n_0_n_n_0_2_1 table
      (broadcastInDim S4096x4096x1 ![0, 1] bcast_S4096x4096_S4096x4096x1_0_1 (wrappedT codes))) (scaleCols scale)) bitsLt_bf16_f32

/-- The matrix product's first operand: `x` flattened to 8192 rows. -/
def rows (x : FVec Ideal S4x2048x4096 .f32) : FVec Ideal S8192x4096 .f32 :=
  shapeCast S8192x4096 x shapeCasts_S4x2048x4096_S8192x4096

/-! ## Each read at an index -/

/-- The transposed codes at `(k, o)` are the codes at `(o, k)`. -/
theorem codesT_apply (codes : IVec S4096x4096 32) (k o : Fin 4096) : codesT codes (ix2 k o) = codes (ix2 o k) :=
  transpose_apply [1, 0] codes transposes_S4096x4096_S4096x4096_1_0 (ix2 k o) (ix2 o k) (fun b => by
    match b with
    | ⟨0, _⟩ => rfl
    | ⟨1, _⟩ => rfl)

/-- The wrapped transposed codes at `(k, o)`: the code at `(o, k)`, wrapped. -/
theorem wrappedT_apply (codes : IVec S4096x4096 32) (k o : Fin 4096) :
    wrappedT codes (ix2 k o) = Cert.Linear.wrapCode (codes (ix2 o k)) := by
  show Scalar.select (IntOp.cmpi .slt (codesT codes (ix2 k o)) 0#32) (IntOp.addi (codesT codes (ix2 k o)) 256#32) (codesT codes (ix2 k o)) = _
  rw [codesT_apply]
  rfl

/-- An integer matrix given a trailing unit axis, read at `(r, c, 0)`, is the matrix at `(r, c)`. -/
theorem startIndex_apply (v : IVec S4096x4096 32) (y : S4096x4096.Idx) :
    broadcastInDim S4096x4096x1 ![0, 1] bcast_S4096x4096_S4096x4096x1_0_1 v (takeIdx y) = v y :=
  broadcastInDim_apply _ bcast_S4096x4096_S4096x4096x1_0_1 v (takeIdx y) y (fun a => by
    match a with
    | ⟨0, _⟩ => show (y 0).val = if (4096 : Nat) = 1 then 0 else (y 0).val; rw [if_neg (by decide)]
    | ⟨1, _⟩ => show (y 1).val = if (4096 : Nat) = 1 then 0 else (y 1).val; rw [if_neg (by decide)])

/-- The printed gather's dimension numbers are those of a flat table read at a matrix of start positions. -/
theorem gatherDims_eq : gather_S256_S4096x4096x1_S4096x4096_n_0_n_n_0_2_1
    = takeDims 256 4096 4096 gather_S256_S4096x4096x1_S4096x4096_n_0_n_n_0_2_1_wf := rfl

/-- The table gathered at any array of start positions, read at `(r, c)`: the table entry at the position
    `(r, c, 0)`, read signed and clamped into `[0, 255]`. -/
theorem gather_apply (table : FVec Ideal S256 .f32) (idx : IVec S4096x4096x1 32) (y : S4096x4096.Idx) :
    Host.gather gather_S256_S4096x4096x1_S4096x4096_n_0_n_n_0_2_1 table idx y
      = table (ix1 ⟨min (idx (takeIdx y)).toInt.toNat (256 - 1), by omega⟩) := by
  rw [gatherDims_eq]
  exact gather_take_apply (by decide) gather_S256_S4096x4096x1_S4096x4096_n_0_n_n_0_2_1_wf table idx y

/-- Equal positions select equal table entries. -/
theorem entry_congr (table : FVec Ideal S256 .f32) (a b : BitVec 32) (h : a = b) :
    table (ix1 ⟨min a.toInt.toNat (256 - 1), by omega⟩) = table (ix1 ⟨min b.toInt.toNat (256 - 1), by omega⟩) := by
  subst h; rfl

/-- The table gathered at a matrix of start positions, read at an index: the table entry at the position there, read
    signed and clamped into `[0, 255]`. -/
theorem gathered_apply (table : FVec Ideal S256 .f32) (v : IVec S4096x4096 32) (y : S4096x4096.Idx) :
    Host.gather gather_S256_S4096x4096x1_S4096x4096_n_0_n_n_0_2_1 table
        (broadcastInDim S4096x4096x1 ![0, 1] bcast_S4096x4096_S4096x4096x1_0_1 v) y
      = table (ix1 ⟨min (v y).toInt.toNat (256 - 1), by omega⟩) := by
  have h := gather_apply table (broadcastInDim S4096x4096x1 ![0, 1] bcast_S4096x4096_S4096x4096x1_0_1 v) y
  exact h.trans (entry_congr table _ _ (startIndex_apply v y))

/-- The repeated scale at `(k, o)` is the scale of output row `o`. -/
theorem scaleCols_apply (scale : FVec Ideal S4096x1 .f32) (k o : Fin 4096) :
    scaleCols scale (ix2 k o) = scale (ix2 o (0 : Fin 1)) := by
  unfold scaleCols
  refine (broadcastInDim_apply _ bcast_S1x4096_S4096x4096_0_1 _ (ix2 k o) (ix2 (0 : Fin 1) o) (fun a => by
    match a with
    | ⟨0, _⟩ => show 0 = if (1 : Nat) = 1 then 0 else k.val; rw [if_pos rfl]
    | ⟨1, _⟩ => show o.val = if (4096 : Nat) = 1 then 0 else o.val; rw [if_neg (by decide)])).trans ?_
  refine (broadcastInDim_apply _ bcast_S4096_S1x4096_1 _ (ix2 (0 : Fin 1) o) (ix1 o) (fun a => by
    match a with
    | ⟨0, _⟩ => show o.val = if (4096 : Nat) = 1 then 0 else o.val; rw [if_neg (by decide)])).trans ?_
  exact shapeCast_apply scale shapeCasts_S4096x1_S4096 (ix1 o) (ix2 o (0 : Fin 1)) (by
    rw [Shape.rowMajor_val_two, Shape.rowMajor_val_one]
    show o.val * 1 + 0 = o.val
    omega)

/-- THE SECOND OPERAND at `(k, o)` is the weight of output row `o` at input column `k`. -/
theorem weightsT_apply (codes : IVec S4096x4096 32) (scale : FVec Ideal S4096x1 .f32) (table : FVec Ideal S256 .f32)
    (k o : Fin 4096) : weightsT codes scale table (ix2 k o) = Cert.Linear.weight codes scale table o k := by
  show Host.gather gather_S256_S4096x4096x1_S4096x4096_n_0_n_n_0_2_1 table
        (broadcastInDim S4096x4096x1 ![0, 1] bcast_S4096x4096_S4096x4096x1_0_1 (wrappedT codes)) (ix2 k o)
      * scaleCols scale (ix2 k o) = _
  rw [gathered_apply, scaleCols_apply]
  unfold Cert.Linear.weight Cert.Linear.entry
  exact congrArg (· * scale (ix2 o (0 : Fin 1))) (entry_congr table _ _ (wrappedT_apply codes k o))

/-- THE FIRST OPERAND at row `b · 2048 + s`, column `k`, is `x (b, s, k)`. -/
theorem rows_apply (x : FVec Ideal S4x2048x4096 .f32) (b : Fin 4) (s : Fin 2048) (k : Fin 4096) :
    rows x (ix2 (⟨b.val * 2048 + s.val, by omega⟩ : Fin 8192) k) = x (ix3 b s k) :=
  shapeCast_apply x shapeCasts_S4x2048x4096_S8192x4096 (ix2 (⟨b.val * 2048 + s.val, by omega⟩ : Fin 8192) k) (ix3 b s k) (by
    rw [Shape.rowMajor_val_three, Shape.rowMajor_val_two]
    show (b.val * 2048 + s.val) * 4096 + k.val = (b.val * 2048 + s.val) * 4096 + k.val
    rfl)

/-! ## The region finds them in its two input arrays -/

variable (m : (ℓ : Loc nD τ sig) → Buf (Elt Ideal) ℓ)

/-- Window 1's array (the converted product of the gathered table and the scale) holds the transposed weights. -/
theorem V_weightsT (c : Dev nD) :
    (V m c main_v12 : S4096x4096.Idx → EReal)
      = weightsT (m ((c : Thread nD τ).loc main_arg1)) (m ((c : Thread nD τ).loc main_arg2)) (m ((c : Thread nD τ).loc main_arg3)) := by
  show StableHlo.after hostOps0 (fun b => m (c, b)) (Proc.devRef .tc main_v12) = _
  after_results
  rfl

/-- Window 0's array holds `x` flattened to rows. -/
theorem V_rows (c : Dev nD) :
    (V m c main_v13 : S8192x4096.Idx → EReal) = rows (m ((c : Thread nD τ).loc main_arg0)) := by
  show StableHlo.after hostOps0 (fun b => m (c, b)) (Proc.devRef .tc main_v13) = _
  after_results
  rfl

end Cert.KernelIdeal.Operands

end
-- ==== Proof.KernelProduct.lean ====
/-
  What the region leaves in its output array: the matrix product of its two input arrays.

  The grid has 64 points. At point `t` the body loads rows `128 t … 128 t + 127` of the first array (all 4096 columns)
  and the WHOLE second array, and stores their product, accumulated from zero, into rows `128 t … 128 t + 127` of the
  output. On the extended reals a matrix product into a zero accumulator is, at `(p, o)`, the sum over the contracted
  column `k` of `left (p, k) · right (k, o)`, and narrowing the left operand's float format is the identity. So each
  point writes its block of ONE function of the two arrays — `product A B (r, o) = ∑ k, A (r, k) · B (k, o)` — and the 64
  blocks tile the 8192 rows: the array ends holding `product`.
-/
import proofs.«113855_j40518721471149_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.Product

open Cert.KernelIdeal Cert.KernelIdeal.Gen
open Idealize.ShloMosaic Idealize.ShloMosaic.TcCoe Idealize.SL.Sem Idealize.ShloMosaic.ValueIdx
open Idealize.ShloMosaic.Pipeline (Dat)

/-- The left factor's index for output index `i = (r, o)` and contracted column `k`: `(r, k)`. -/
abbrev leftAt (i : S8192x4096.Idx) (k : Fin 4096) : S8192x4096.Idx := fun a => match a with
  | ⟨0, _⟩ => ⟨(i 0).val, (i 0).isLt⟩
  | ⟨1, _⟩ => ⟨k.val, k.isLt⟩
/-- The right factor's: `(k, o)`. -/
abbrev rightAt (i : S8192x4096.Idx) (k : Fin 4096) : S4096x4096.Idx := fun a => match a with
  | ⟨0, _⟩ => ⟨k.val, k.isLt⟩
  | ⟨1, _⟩ => ⟨(i 1).val, (i 1).isLt⟩

/-- The product of an 8192 × 4096 matrix and a 4096 × 4096 one: at `(r, o)` the sum over `k` of `A (r, k) · B (k, o)`. -/
def product (A : S8192x4096.Idx → EReal) (B : S4096x4096.Idx → EReal) : S8192x4096.Idx → EReal :=
  fun i => ∑ k : Fin 4096, A (leftAt i k) * B (rightAt i k)

/-- The same two indices inside one 128-row block, for block index `j = (p, o)`: `(p, k)` and `(k, o)`. -/
abbrev rowAt (j : S128x4096.Idx) (k : Fin 4096) : S128x4096.Idx := fun a => match a with
  | ⟨0, _⟩ => ⟨(j 0).val, (j 0).isLt⟩
  | ⟨1, _⟩ => ⟨k.val, k.isLt⟩
abbrev colAt (j : S128x4096.Idx) (k : Fin 4096) : S4096x4096.Idx := fun a => match a with
  | ⟨0, _⟩ => ⟨k.val, k.isLt⟩
  | ⟨1, _⟩ => ⟨(j 1).val, (j 1).isLt⟩

/-! ## The body's stored value at an index -/

/-- The left operand's index at output `(p, o)` and contraction position `q` is `(p, q)`; -/
theorem lhs_row (j : S128x4096.Idx) (q : dot_S128x4096_S4096x4096_S128x4096_1_0_0_1_n_n.contr.Idx) :
    (dot_S128x4096_S4096x4096_S128x4096_1_0_0_1_n_n.lhsIdx j q 0).val = (j 0).val := by
  unfold DotDims.lhsIdx
  rw [dif_neg (show ¬(0 : Fin S128x4096.rank) ∈ dot_S128x4096_S4096x4096_S128x4096_1_0_0_1_n_n.lhsBatch by decide),
    dif_pos (show (0 : Fin S128x4096.rank) ∈ dot_S128x4096_S4096x4096_S128x4096_1_0_0_1_n_n.lhsNonContracting by decide)]
  rfl
theorem lhs_col (j : S128x4096.Idx) (q : dot_S128x4096_S4096x4096_S128x4096_1_0_0_1_n_n.contr.Idx) :
    (dot_S128x4096_S4096x4096_S128x4096_1_0_0_1_n_n.lhsIdx j q 1).val = (q ⟨0, by decide⟩).val :=
  dot_S128x4096_S4096x4096_S128x4096_1_0_0_1_n_n.lhsIdx_val_of_single rfl j q
/-- the right operand's is `(q, o)`. -/
theorem rhs_row (j : S128x4096.Idx) (q : dot_S128x4096_S4096x4096_S128x4096_1_0_0_1_n_n.contr.Idx) :
    (dot_S128x4096_S4096x4096_S128x4096_1_0_0_1_n_n.rhsIdx j q 0).val = (q ⟨0, by decide⟩).val :=
  dot_S128x4096_S4096x4096_S128x4096_1_0_0_1_n_n.rhsIdx_val_of_single rfl j q
theorem rhs_col (j : S128x4096.Idx) (q : dot_S128x4096_S4096x4096_S128x4096_1_0_0_1_n_n.contr.Idx) :
    (dot_S128x4096_S4096x4096_S128x4096_1_0_0_1_n_n.rhsIdx j q 1).val = (j 1).val := by
  unfold DotDims.rhsIdx
  rw [dif_neg (show ¬(1 : Fin S4096x4096.rank) ∈ dot_S128x4096_S4096x4096_S128x4096_1_0_0_1_n_n.rhsBatch by decide),
    dif_pos (show (1 : Fin S4096x4096.rank) ∈ dot_S128x4096_S4096x4096_S128x4096_1_0_0_1_n_n.rhsNonContracting by decide)]
  rfl

/-- THE STORED VALUE at `j = (p, o)`: the sum over `k` of the loaded rows at `(p, k)` times the loaded weights at `(k, o)`. -/
theorem stored_apply (x0 : FVec Ideal S128x4096 .f32) (x1 : FVec Ideal S4096x4096 .bf16) (j : S128x4096.Idx) :
    k0_pay1 (F := Ideal) x0 x1 j = ∑ k : Fin 4096, x0 (rowAt j k) * x1 (colAt j k) := by
  show FloatOps.matmul dot_S128x4096_S4096x4096_S128x4096_1_0_0_1_n_n none
      (truncf .bf16 (shapeCast S128x4096 x0 shapeCasts_S128x4096_S128x4096) bitsLt_bf16_f32)
      (shapeCast S4096x4096 x1 shapeCasts_S4096x4096_S4096x4096) (constant (F := Ideal) S128x4096 .f32 0x00000000#32) j = _
  rw [shapeCast_self, shapeCast_self]
  refine (Ideal.matmul_constant_zero_apply dot_S128x4096_S4096x4096_S128x4096_1_0_0_1_n_n none _ _ j).trans ?_
  rw [← Equiv.sum_comp (contrEquiv1 dot_S128x4096_S4096x4096_S128x4096_1_0_0_1_n_n 4096 rfl rfl).symm]
  refine Finset.sum_congr rfl fun k _ => ?_
  have hk := contrEquiv1_symm_val dot_S128x4096_S4096x4096_S128x4096_1_0_0_1_n_n 4096 rfl rfl k
  have el : dot_S128x4096_S4096x4096_S128x4096_1_0_0_1_n_n.lhsIdx j
      ((contrEquiv1 dot_S128x4096_S4096x4096_S128x4096_1_0_0_1_n_n 4096 rfl rfl).symm k) = rowAt j k :=
    funext fun a => Fin.ext (by
      match a with
      | ⟨0, _⟩ => exact lhs_row _ _
      | ⟨1, _⟩ => exact (lhs_col _ _).trans hk)
  have er : dot_S128x4096_S4096x4096_S128x4096_1_0_0_1_n_n.rhsIdx j
      ((contrEquiv1 dot_S128x4096_S4096x4096_S128x4096_1_0_0_1_n_n 4096 rfl rfl).symm k) = colAt j k :=
    funext fun a => Fin.ext (by
      match a with
      | ⟨0, _⟩ => exact (rhs_row _ _).trans hk
      | ⟨1, _⟩ => exact rhs_col _ _)
  rw [el, er]
  rfl

/-! ## From the 64 blocks to the array -/

variable (m : (ℓ : Loc nD τ sig) → Buf (Elt Ideal) ℓ)

theorem zero_offsets : (![0, 0] : Fin 2 → Nat) = fun _ => 0 := funext fun a => by fin_cases a <;> rfl

/-- The printed index maps, decided over the 64 points: the rows' block and the output's block are both block-row
    `t`, on the one block-column there is; the weights' block is the whole matrix. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 63 :=
  (by decide +kernel : ∀ t : Fin grid0.N, _)

/-- Every block-row of the output is some point's. -/
theorem index_onto : ∀ q : Fin 64, ∃ t : Fin cfg0.N, win0_2.index t = ![q.val, 0] :=
  (by decide +kernel : ∀ q : Fin 64, ∃ t : Fin grid0.N, win0_2.index t = ![q.val, 0])

/-- WHAT POINT `t` WRITES BACK is block `t` of the product of the two arrays as the region finds them. -/
theorem flushed_eq (c : Dev nD) (t : Fin cfg0.N) :
    (dats m 0 c).flushed 2 t
      = ((cfg0.win 2).blk t).view.read (Elt Ideal) (product (V m c main_v13) (V m c main_v12)) := by
  show (cfg0.win 2).cut (grid0.coords t) ((dats m 0 c).after 2 t) = _
  rw [after0_2]
  unfold out0_2
  rw [View.canon_unit_zero zero_offsets]
  simp only [View.ld_unit_zero (S := S128x4096) zero_offsets, View.ld_unit_zero (S := S4096x4096) zero_offsets]
  obtain ⟨e0, e1, e2, e3, e4, e5⟩ := index_facts t
  funext j
  show k0_pay1 (iblk m c 0 t) (iblk m c 1 t) j
    = product (V m c main_v13) (V m c main_v12) (((cfg0.win 2).blk t).view.emb j)
  refine (stored_apply (iblk m c 0 t) (iblk m c 1 t) j).trans ?_
  show (∑ k : Fin 4096, _) = (∑ k : Fin 4096, _)
  refine Finset.sum_congr rfl fun k _ => ?_
  have h0 : iblk m c 0 t (rowAt j k) = V m c main_v13 (leftAt (((cfg0.win 2).blk t).view.emb j) k) := by
    show V m c main_v13 (((cfg0.win 0).blk t).view.emb (rowAt j k)) = _
    refine congrArg (V m c main_v13) (funext fun a => Fin.ext ?_)
    match a with
    | ⟨0, _⟩ =>
      show win0_0.index t (0 : Fin 2) * 128 + 1 * (j 0).val = win0_2.index t (0 : Fin 2) * 128 + 1 * (j 0).val
      rw [e0]
    | ⟨1, _⟩ =>
      show win0_0.index t (1 : Fin 2) * 4096 + 1 * k.val = k.val
      rw [e1]; omega
  have h1 : iblk m c 1 t (colAt j k) = V m c main_v12 (rightAt (((cfg0.win 2).blk t).view.emb j) k) := by
    show V m c main_v12 (((cfg0.win 1).blk t).view.emb (colAt j k)) = _
    refine congrArg (V m c main_v12) (funext fun a => Fin.ext ?_)
    match a with
    | ⟨0, _⟩ =>
      show win0_1.index t (0 : Fin 2) * 4096 + 1 * k.val = k.val
      rw [e2]; omega
    | ⟨1, _⟩ =>
      show win0_1.index t (1 : Fin 2) * 4096 + 1 * (j 1).val = win0_2.index t (1 : Fin 2) * 4096 + 1 * (j 1).val
      rw [e3, e4]
  rw [h0, h1]

/-- An index of the output array is in point `t`'s block iff each coordinate is in the block's range on its axis. -/
theorem mem_block (t : Fin cfg0.N) (i : S8192x4096.Idx) :
    i ∈ ((cfg0.win 2).blk t).view.set
      ↔ ∀ a : Fin 2, win0_2.index t a * S128x4096.size a ≤ (i a).val ∧ (i a).val < win0_2.index t a * S128x4096.size a + S128x4096.size a := by
  show i ∈ ((View.whole main_v14).slice (win0_2.rect t)).set ↔ _
  rw [View.set_slice_whole, Rect.mem_set_unit]
  exact Iff.rfl

/-- The blocks tile the array: row `r` is in the block of the point whose block-row is `r / 128`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 4096 ≤ (i 1).val ∧ (i 1).val < win0_2.index t (1 : Fin 2) * 4096 + 4096
    omega

/-- THE OUTPUT ARRAY after the region: the product of the two input arrays as the region finds them. -/
theorem final (c : Dev nD) :
    (dats m 0 c).arrAt 2 cfg0.N = product (V m c main_v13) (V m c main_v12) :=
  (dats m 0 c).arrAt_eq_of_cover 2 (product (V m c main_v13) (V m c main_v12)) (fun t _ => flushed_eq m c t) covered

end Cert.KernelIdeal.Product

end
-- ==== Proof.KernelValue.lean ====
/-
  The kernel's program computes the layer: after its run the result holds `Linear.out` of the four arguments.

  The region leaves the product of `x` flattened to rows and the transposed weight matrix; the one line after the
  region recasts that 8192 × 4096 array to [4, 2048, 4096], so the result at `(b, s, o)` is the product at row
  `b · 2048 + s`, column `o`: the sum over `k` of `x (b, s, k) · weight o k`.
-/
import proofs.«113855_j40518721471149_2_alg».proof.Proof.KernelOperands
import proofs.«113855_j40518721471149_2_alg».proof.Proof.KernelProduct

noncomputable section

open scoped BigOperators

namespace Cert.KernelIdeal.LayerValue

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The product of `x` flattened to rows and the transposed weights, at row `b · 2048 + s`, column `o`, is the layer's
    output at `(b, s, o)`: the same factors in the same order, summed over the same `k`. -/
theorem product_rows_weightsT (x : FVec Ideal S4x2048x4096 .f32) (codes : IVec S4096x4096 32) (scale : FVec Ideal S4096x1 .f32)
    (table : FVec Ideal S256 .f32) (b : Fin 4) (s : Fin 2048) (o : Fin 4096) :
    Product.product (Operands.rows x) (Operands.weightsT codes scale table) (ix2 (⟨b.val * 2048 + s.val, by omega⟩ : Fin 8192) o)
      = Cert.Linear.out x codes scale table (ix3 b s o) := by
  show (∑ k : Fin 4096, _) = ∑ k : Fin 4096, x (ix3 b s k) * Cert.Linear.weight codes scale table o k
  refine Finset.sum_congr rfl fun k _ => ?_
  have el : Product.leftAt (ix2 (⟨b.val * 2048 + s.val, by omega⟩ : Fin 8192) o) k
      = ix2 (⟨b.val * 2048 + s.val, by omega⟩ : Fin 8192) k := funext fun a => Fin.ext (by
    match a with
    | ⟨0, _⟩ => rfl
    | ⟨1, _⟩ => rfl)
  have er : Product.rightAt (ix2 (⟨b.val * 2048 + s.val, by omega⟩ : Fin 8192) o) k = ix2 k o := funext fun a => Fin.ext (by
    match a with
    | ⟨0, _⟩ => rfl
    | ⟨1, _⟩ => rfl)
  rw [el, er, Operands.rows_apply, Operands.weightsT_apply]

/-- So is the product of the two arrays the region finds, which hold exactly those. -/
theorem product_apply (c : Dev nD) (b : Fin 4) (s : Fin 2048) (o : Fin 4096) :
    Product.product (V m c main_v13) (V m c main_v12) (ix2 (⟨b.val * 2048 + s.val, by omega⟩ : Fin 8192) o)
      = Cert.Linear.out (m ((c : Thread nD τ).loc main_arg0)) (m ((c : Thread nD τ).loc main_arg1))
          (m ((c : Thread nD τ).loc main_arg2)) (m ((c : Thread nD τ).loc main_arg3)) (ix3 b s o) := by
  rw [Operands.V_rows, Operands.V_weightsT]
  exact product_rows_weightsT _ _ _ _ b s o

/-- THE RESULT after the line that follows the region: the layer's output. -/
theorem result_eq (c : Dev nD) :
    (Pipeline.afterTail₀ cfgs (dats m) 0 (V0 m) [hostOps1] c main_v15 : S4x2048x4096.Idx → EReal)
      = Cert.Linear.out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.tc.devRef main_v14)
      = Product.product (V m c main_v13) (V m c main_v12) :=
    (Pipeline.withArrays_arr spec0 launch0.win.arr_inj c _ _ 2).trans (Product.final m c)
  funext i
  show shapeCast S4x2048x4096 (Pipeline.withArrays (cfgs 0).spec c (V0 m c) (fun w => (dats m 0 c).arrAt w (cfgs 0).N)
      (Proc.tc.devRef main_v14)) shapeCasts_S8192x4096_S4x2048x4096 i = _
  rw [hw]
  obtain ⟨b, s, o, rfl⟩ : ∃ (b : Fin 4) (s : Fin 2048) (o : Fin 4096), i = ix3 b s o := ⟨i 0, i 1, i 2, eq_ix3 i⟩
  refine (shapeCast_apply (Product.product (V m c main_v13) (V m c main_v12)) shapeCasts_S8192x4096_S4x2048x4096 (ix3 b s o)
    (ix2 (⟨b.val * 2048 + s.val, by omega⟩ : Fin 8192) o) ?_).trans (product_apply m c b s o)
  rw [Shape.rowMajor_val_three, Shape.rowMajor_val_two]
  rfl

/-- THE RUN: every weakly fair execution of the kernel's program terminates with the result at the layer's output
    of the arguments, and the arguments unchanged. -/
theorem run : θ_run defs (onTc (τ := τ) (main (F := Ideal))) ⟨m, fun _ => 0, ρ⟩ fun r => ∀ c : Dev nD,
      r.2.mem ((c.tc : Thread nD τ).loc main_v15)
        = Cert.Linear.out (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LayerValue

end
-- ==== Proof.lean ====
/-
  A linear layer whose weight matrix is stored quantized — integer codes into a table of 256 values, one scale per
  output row — computed two ways, equal on the extended reals.

  The reference dequantizes the matrix (`weight o k = table[code o k] · scale o`, a negative code counted from the
  table's end and every position clamped into the table) and contracts: `out (b, s, o) = ∑ k, x (b, s, k) · weight o k`.
  The kernel's program builds the same matrix already transposed, flattens `x` to 8192 rows, multiplies 128 rows at
  a time against the whole matrix on a grid of 64 points, accumulating from zero, and recasts the 8192 × 4096 result
  to [4, 2048, 4096]. Read on the extended reals, narrowing a float format is the identity, a matrix product into a
  zero accumulator and a contraction are the same sum over `k`, and the factors `x (b, s, k)` and `weight o k` meet in
  the same order on both sides; so the two results are one function (`Linear.out`), term by term, with no law of
  arithmetic needed beyond `0 + a = a` — in particular nothing that would ask the inputs to be finite.

  `Linear`          the layer as one function of its arguments.
  `RefValue`        the reference's result is that function.
  `KernelOperands`  what the two operands of the kernel's matrix product hold.
  `KernelProduct`   the region's 64 blocks are blocks of one product, and they tile the output array.
  `KernelValue`     the kernel's run ends with the result at that function.
  Here: the three frames, the (empty) list of idealizing rewrites, and the two runs side by side.
-/
import proofs.«113855_j40518721471149_2_alg».proof.Defs
import proofs.«113855_j40518721471149_2_alg».proof.Proof.Gen.Kernel
import proofs.«113855_j40518721471149_2_alg».proof.Proof.Gen.Kernel.Skeleton
import proofs.«113855_j40518721471149_2_alg».proof.Proof.Gen.Kernel.Launch
import proofs.«113855_j40518721471149_2_alg».proof.Proof.Gen.Kernel.Points
import proofs.«113855_j40518721471149_2_alg».proof.Proof.Gen.Kernel.Frame
import proofs.«113855_j40518721471149_2_alg».proof.Proof.Gen.KernelIdeal
import proofs.«113855_j40518721471149_2_alg».proof.Proof.Gen.KernelIdeal.Skeleton
import proofs.«113855_j40518721471149_2_alg».proof.Proof.Gen.KernelIdeal.Launch
import proofs.«113855_j40518721471149_2_alg».proof.Proof.Gen.KernelIdeal.Points
import proofs.«113855_j40518721471149_2_alg».proof.Proof.Gen.KernelIdeal.Frame
import proofs.«113855_j40518721471149_2_alg».proof.Proof.Gen.ReferenceIdeal
import proofs.«113855_j40518721471149_2_alg».proof.Proof.Gen.Pre_finite_inputs
import proofs.«113855_j40518721471149_2_alg».proof.Proof.Gen.ReferenceIdeal.Run
import proofs.«113855_j40518721471149_2_alg».proof.Proof.Gen.ReferenceIdeal.Read
import proofs.«113855_j40518721471149_2_alg».proof.Proof.RefValue
import proofs.«113855_j40518721471149_2_alg».proof.Proof.KernelValue
import Idealize.ShloMosaic.Adequacy
import Idealize.ShloMosaic.Init

noncomputable section

namespace Cert.Proof

open Idealize.ShloMosaic Idealize.ShloMosaic.TcCoe Idealize.SL.Sem

/-- The kernel's program as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- From memories that agree on the four arguments both programs end with their result at `Linear.out` of those
    arguments: the kernel's by its run, the reference's by its run read one operation at a time. -/
theorem algebraic : Cert.algebraic_KernelIdeal_ReferenceIdeal := by
  intro m ρ m' ρ' _ hagree
  refine ⟨fun c => Cert.Linear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.LayerValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
